-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2176 : Shape := ⟨2, ![16384, 2176]⟩
abbrev S2176x64 : Shape := ⟨2, ![2176, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x2176 : S_.BroadcastsInDim S16384x2176 (![] : Fin 0 → Fin S16384x2176.rank)
  reducesTo_S16384x2176_S_d0_1 : S16384x2176.ReducesTo [0, 1] S_
  h_S_ : 0 < S_.numel
  bcast_S_S2176x64 : S_.BroadcastsInDim S2176x64 (![] : Fin 0 → Fin S2176x64.rank)
  reducesTo_S2176x64_S_d0_1 : S2176x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x2176 .f32) (main_arg1 : FVec F S2176x64 .f32) (main_arg2 : FVec F S64 .f32) (main_arg3 : FVec F S64x1 .f32) (main_arg4 : FVec F S1 .f32) : IVec S_ 1 :=
  let main_v0 : FVec F S16384x2176 .f32 := Host.absf main_arg0
  let main_cst : FVec F S_ .f32 := constant S_ .f32 0x7F800000#32
  let main_v1 : FVec F S16384x2176 .f32 := broadcastInDim S16384x2176 ![] bcast_S_S16384x2176 main_cst
  let main_v2 : IVec S16384x2176 1 := cmpf .olt main_v0 main_v1
  let main_c : IVec S_ 1 := constantI S_ 1 1#1
  let main_v3 : IVec S_ 1 := (fun x v => Host.reduce IntOp.andi x v reducesTo_S16384x2176_S_d0_1 h_S_) main_v2 main_c
  let main_v4 : FVec F S2176x64 .f32 := Host.absf main_arg1
  let main_cst_0 : FVec F S_ .f32 := constant S_ .f32 0x7F800000#32
  let main_v5 : FVec F S2176x64 .f32 := broadcastInDim S2176x64 ![] bcast_S_S2176x64 main_cst_0
  let main_v6 : IVec S2176x64 1 := cmpf .olt main_v4 main_v5
  let main_c_1 : IVec S_ 1 := constantI S_ 1 1#1
  let main_v7 : IVec S_ 1 := (fun x v => Host.reduce IntOp.andi x v reducesTo_S2176x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S16384x2176 : Shape := ⟨2, ![16384, 2176]⟩
abbrev S2176x64 : Shape := ⟨2, ![2176, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S16x1x1024 : Shape := ⟨3, ![16, 1, 1024]⟩
abbrev S1024x2176 : Shape := ⟨2, ![1024, 2176]⟩
abbrev S1x1x1024 : Shape := ⟨3, ![1, 1, 1024]⟩
abbrev S1x2176 : Shape := ⟨2, ![1, 2176]⟩
abbrev S1x1024 : Shape := ⟨2, ![1, 1024]⟩
abbrev S16384x1 : Shape := ⟨2, ![16384, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2176, .f32⟩
  | .hbm, ⟨1, _⟩ => ⟨S2176x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x64, .f32⟩
  | .hbm, ⟨6, _⟩ => ⟨S1x1, .f32⟩
  | .hbm, ⟨7, _⟩ => ⟨S16x1x1024, .f32⟩
  | .hbm, ⟨8, _⟩ => ⟨S16384x1, .f32⟩
  | .local _ .vmem, ⟨0, _⟩ => ⟨S1024x2176, .f32⟩
  | .local _ .vmem, ⟨1, _⟩ => ⟨S1024x2176, .f32⟩
  | .local _ .vmem, ⟨2, _⟩ => ⟨S2176x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S1x1x1024, .f32⟩
  | .local _ .vmem, ⟨7, _⟩ => ⟨S1x1x1024, .f32⟩
  | .local _ .vmem, ⟨8, _⟩ => ⟨S1x2176, .f32⟩
  | .local _ .vmem, ⟨9, _⟩ => ⟨S1x1, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S2176x64_S2176x64_0_0 : ∀ a, (![0, 0] : Fin 2 → Nat) a + S2176x64.size a ≤ S2176x64.size a
  h_S2176x64 : 0 < S2176x64.numel
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2176_S1024x2176_0_0 : ∀ a, (![0, 0] : Fin 2 → Nat) a + S1024x2176.size a ≤ S1024x2176.size a
  h_S1024x2176 : 0 < S1024x2176.numel
  broadcasts_S1x1_S1x1024 : S1x1.Broadcasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384x1 : S16x1x1024.ShapeCasts S16384x1
  dot_S64x1_S2176x64_S1x2176_0_1_1_0_n_n_wf : DotDims.WF S64x1 S2176x64 S1x2176 [0] [1] [1] [0] [] []
  dot_S1x64_S64x1_S1x1_1_0_0_1_n_n_wf : DotDims.WF S1x64 S64x1 S1x1 [1] [0] [0] [1] [] []
  dot_S1x2176_S1024x2176_S1x1024_1_1_0_0_n_n_wf : DotDims.WF S1x2176 S1024x2176 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2176.size a ≤ S16384x2176.size a
  hwx0_0 : ∀ i : grid0.Coords, EltTy.bits .f32 = 32 ∨ (Rect.block (s := S16384x2176) S1024x2176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2176x64.size a ≤ S2176x64.size a
  hwx0_1 : ∀ i : grid0.Coords, EltTy.bits .f32 = 32 ∨ (Rect.block (s := S2176x64) S2176x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .f32 = 32 ∨ (Rect.block (s := S16x1x1024) S1x1x1024.size (cc0_transform_5 i) (hinb0_5 i)).WholeWords (EltTy.packing .f32)

variable [Facts₀]

def dot_S64x1_S2176x64_S1x2176_0_1_1_0_n_n : DotDims S64x1 S2176x64 S1x2176 where
  lhsContracting := [0]
  rhsContracting := [1]
  lhsNonContracting := [1]
  rhsNonContracting := [0]
  lhsBatch := []
  rhsBatch := []
  wf := dot_S64x1_S2176x64_S1x2176_0_1_1_0_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S1x2176_S1024x2176_S1x1024_1_1_0_0_n_n : DotDims S1x2176 S1024x2176 S1x1024 where
  lhsContracting := [1]
  rhsContracting := [1]
  lhsNonContracting := [0]
  rhsNonContracting := [0]
  lhsBatch := []
  rhsBatch := []
  wf := dot_S1x2176_S1024x2176_S1x1024_1_1_0_0_n_n_wf

abbrev win0_0 : Pipeline.Window sig grid0 :=
  Pipeline.Window.ofSpec (Memref.whole main_arg0) S1024x2176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2176x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2176 : Shape := ⟨2, ![16384, 2176]⟩
abbrev S2176x64 : Shape := ⟨2, ![2176, 64]⟩
abbrev S64 : Shape := ⟨1, ![64]⟩
abbrev S64x1 : Shape := ⟨2, ![64, 1]⟩
abbrev S1 : Shape := ⟨1, ![1]⟩
abbrev S16384x64 : Shape := ⟨2, ![16384, 64]⟩
abbrev S1x64 : Shape := ⟨2, ![1, 64]⟩
abbrev S16384x1 : Shape := ⟨2, ![16384, 1]⟩
abbrev S1x1 : Shape := ⟨2, ![1, 1]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S2176x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S16384x1, .f32⟩
  | .hbm, ⟨10, _⟩ => ⟨S1x1, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x2176_S2176x64_S16384x64_1_0_0_1_n_n_wf : DotDims.WF S16384x2176 S2176x64 S16384x64 [1] [0] [0] [1] [] []
  dot_S16384x64_S64x1_S16384x1_1_0_0_1_n_n_wf : DotDims.WF S16384x64 S64x1 S16384x1 [1] [0] [0] [1] [] []

variable [Facts₀]

def dot_S16384x2176_S2176x64_S16384x64_1_0_0_1_n_n : DotDims S16384x2176 S2176x64 S16384x64 where
  lhsContracting := [1]
  rhsContracting := [0]
  lhsNonContracting := [0]
  rhsNonContracting := [1]
  lhsBatch := []
  rhsBatch := []
  wf := dot_S16384x2176_S2176x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The function both programs compute, and the law that joins their two arrangements of it.

  A two-layer perceptron with no nonlinearity between the layers, followed by a sigmoid: for a batch row `r`,
      score r = ∑ h, (∑ d, x r d * Wh d h + bh h) * Wo h + bo,        prob r = 1 / (1 + e^(-score r)).
  Because the hidden layer is affine, the score is also a single dot product of the row with the folded weight
  vector `w d = ∑ h, Wo h * Wh d h`, shifted by the folded bias `∑ h, bh h * Wo h + bo`:
      score r = ∑ d, w d * x r d + (∑ h, bh h * Wo h + bo).
  The two arrangements differ by distributing the product with `Wo h` over the inner sum and exchanging the two
  sums. Both steps hold for real numbers; on the extended reals distributivity fails at the infinities, so the law
  is stated for entries that are (coercions of) reals.
-/
import Idealize.ShloMosaic.PureOps.Ideal
import Idealize.ShloMosaic.Lib.ValueIdx

noncomputable section

open scoped BigOperators

namespace Cert.Perceptron

open Idealize.ShloMosaic Idealize.ShloMosaic.ValueIdx

/-! ## The law, over the reals -/

/-- The affine hidden layer folds into one weight vector and one bias: distribute `o h` over the inner sum, then
    exchange the sums over `h` and `d`. -/
theorem fold_real {D H : Type} [Fintype D] [Fintype H] (x : D → ℝ) (W : D → H → ℝ) (b o : H → ℝ) (β : ℝ) :
    (∑ h, (∑ d, x d * W d h + b h) * o h) + β
      = (∑ d, (∑ h, o h * W d h) * x d) + ((∑ h, b h * o h) + β) := by
  have h1 : (∑ h, (∑ d, x d * W d h + b h) * o h) = (∑ h, ∑ d, x d * W d h * o h) + ∑ h, b h * o h := by
    rw [← Finset.sum_add_distrib]
    refine Finset.sum_congr rfl fun h _ => ?_
    rw [add_mul, Finset.sum_mul]
  have h2 : (∑ d, (∑ h, o h * W d h) * x d) = ∑ h, ∑ d, x d * W d h * o h := by
    rw [Finset.sum_comm]
    refine Finset.sum_congr rfl fun d _ => ?_
    rw [Finset.sum_mul]
    refine Finset.sum_congr rfl fun h _ => ?_
    ring
  rw [h1, h2, add_assoc]

/-! ## The same law on the extended reals, for real entries -/

/-- A finite sum of coercions of reals is the coercion of the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The folding law for extended-real entries that are real numbers. -/
theorem fold_ereal {D H : Type} [Fintype D] [Fintype H] (x : D → ℝ) (W : D → H → ℝ) (b o : H → ℝ) (β : ℝ) :
    (∑ h, ((∑ d, ((x d : ℝ) : EReal) * ((W d h : ℝ) : EReal)) + ((b h : ℝ) : EReal)) * ((o h : ℝ) : EReal)) + ((β : ℝ) : EReal)
      = (∑ d, (∑ h, ((o h : ℝ) : EReal) * ((W d h : ℝ) : EReal)) * ((x d : ℝ) : EReal))
          + ((∑ h, ((b h : ℝ) : EReal) * ((o h : ℝ) : EReal)) + ((β : ℝ) : EReal)) := by
  simp only [← EReal.coe_mul, coe_sum, ← EReal.coe_add]
  exact congrArg _ (fold_real x W b o β)

/-! ## The result, index by index -/

/-- The score of batch row `r` in the reference's arrangement: hidden layer, then output layer. -/
def score (x : (⟨2, ![16384, 2176]⟩ : Shape).Idx → EReal) (wh : (⟨2, ![2176, 64]⟩ : Shape).Idx → EReal)
    (bh : (⟨1, ![64]⟩ : Shape).Idx → EReal) (wo : (⟨2, ![64, 1]⟩ : Shape).Idx → EReal)
    (bo : (⟨1, ![1]⟩ : Shape).Idx → EReal) (r : Fin 16384) : EReal :=
  (∑ h : Fin 64, ((∑ d : Fin 2176, x (ix2 r d) * wh (ix2 d h)) + bh (ix1 h)) * wo (ix2 h (0 : Fin 1))) + bo (ix1 (0 : Fin 1))

/-- The score of batch row `r` in the kernel's arrangement: one dot product with the folded weights, plus the
    folded bias. -/
def foldedScore (x : (⟨2, ![16384, 2176]⟩ : Shape).Idx → EReal) (wh : (⟨2, ![2176, 64]⟩ : Shape).Idx → EReal)
    (bh : (⟨1, ![64]⟩ : Shape).Idx → EReal) (wo : (⟨2, ![64, 1]⟩ : Shape).Idx → EReal)
    (bo : (⟨1, ![1]⟩ : Shape).Idx → EReal) (r : Fin 16384) : EReal :=
  (∑ d : Fin 2176, (∑ h : Fin 64, wo (ix2 h (0 : Fin 1)) * wh (ix2 d h)) * x (ix2 r d))
    + ((∑ h : Fin 64, bh (ix1 h) * wo (ix2 h (0 : Fin 1))) + bo (ix1 (0 : Fin 1)))

/-- The probabilities: the sigmoid of each row's score, as a column `[16384, 1]`. -/
def prob (x : (⟨2, ![16384, 2176]⟩ : Shape).Idx → EReal) (wh : (⟨2, ![2176, 64]⟩ : Shape).Idx → EReal)
    (bh : (⟨1, ![64]⟩ : Shape).Idx → EReal) (wo : (⟨2, ![64, 1]⟩ : Shape).Idx → EReal)
    (bo : (⟨1, ![1]⟩ : Shape).Idx → EReal) : (⟨2, ![16384, 1]⟩ : Shape).Idx → EReal :=
  fun i => Ideal.logistic (score x wh bh wo bo (i 0))

/-- For arrays whose entries are all real numbers the two arrangements of the score agree. -/
theorem foldedScore_eq_score (x : (⟨2, ![16384, 2176]⟩ : Shape).Idx → EReal) (wh : (⟨2, ![2176, 64]⟩ : Shape).Idx → EReal)
    (bh : (⟨1, ![64]⟩ : Shape).Idx → EReal) (wo : (⟨2, ![64, 1]⟩ : Shape).Idx → EReal)
    (bo : (⟨1, ![1]⟩ : Shape).Idx → EReal)
    (hx : ∀ i, ∃ a : ℝ, x i = a) (hwh : ∀ i, ∃ a : ℝ, wh i = a) (hbh : ∀ i, ∃ a : ℝ, bh i = a)
    (hwo : ∀ i, ∃ a : ℝ, wo i = a) (hbo : ∀ i, ∃ a : ℝ, bo i = a) (r : Fin 16384) :
    foldedScore x wh bh wo bo r = score x wh bh wo bo r := by
  choose x' hx' using hx
  choose wh' hwh' using hwh
  choose bh' hbh' using hbh
  choose wo' hwo' using hwo
  choose bo' hbo' using hbo
  unfold foldedScore score
  simp only [hx', hwh', hbh', hwo', hbo']
  exact (fold_ereal (fun d : Fin 2176 => x' (ix2 r d)) (fun (d : Fin 2176) (h : Fin 64) => wh' (ix2 d h))
    (fun h : Fin 64 => bh' (ix1 h)) (fun h : Fin 64 => wo' (ix2 h (0 : Fin 1))) (bo' (ix1 (0 : Fin 1)))).symm

end Cert.Perceptron

end
-- ==== Proof.Finite.lean ====
/-
  Finiteness on the extended reals. A float input is read as an extended real; the precondition says of every
  entry `x` of every argument array that `|x| < +∞`, where `|x| = max x (-x)`. On the extended reals
  `|⊤| = |⊥| = ⊤`, so the strict inequality excludes both infinities, and what is left is the coercion of a real
  number. The precondition is the conjunction, over the five arrays, of the "for all entries" of that test; this
  file reads the conjunction and each "for all" back, and concludes that every entry of every array is a real.
-/
import Idealize.ShloMosaic.PureOps.Ideal
import Idealize.ShloMosaic.Lib.ValueIdx
import Idealize.ShloMosaic.Lib.ReduceAll
import proofs.«109789_g63591285784749_cont_sun_c4_171_19_alg».proof.Pre_finite_inputs

noncomputable section

namespace Cert.Perceptron

open Idealize.ShloMosaic

/-- The pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊤` and at `⊥` the absolute value is `⊤`, which is not below itself. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  have h' : BitVec.ofBool (decide (max x (-x) < Ideal.ofBits .f32 0x7F800000#32)) = 1#1 := h
  rw [ofBits_inf] at h'
  induction x using EReal.rec with
  | bot => simp at h'
  | coe r => exact ⟨r, rfl⟩
  | top => simp at h'

/-- The shape with no axes has exactly one index. -/
instance : Subsingleton Cert.Pre_finite_inputs.S_.Idx := ⟨fun a b => funext fun d => d.elim0⟩

/-- One array: if the conjunction over all entries of the test `|x| < +∞` holds, every entry is a real. -/
theorem reals_of_all {s : Shape} {axes : List (Fin s.rank)}
    (hr : s.ReducesTo axes Cert.Pre_finite_inputs.S_) (hu : 0 < Cert.Pre_finite_inputs.S_.numel)
    (hb : Cert.Pre_finite_inputs.S_.BroadcastsInDim s (![] : Fin 0 → Fin s.rank))
    (a : FVec Ideal s .f32) (init : IVec Cert.Pre_finite_inputs.S_ 1)
    (e : Host.reduce IntOp.andi
          (cmpf .olt (Host.absf a)
            (broadcastInDim s ![] hb (constant Cert.Pre_finite_inputs.S_ .f32 0x7F800000#32)))
          init hr hu ValueIdx.ix0 = 1#1) :
    ∀ i, ∃ r : ℝ, a i = (r : EReal) := fun i =>
  real_of_abs_lt_inf (a i) (Host.reduce_andi_all _ init hr hu ValueIdx.ix0 e i)

/-- Under the precondition every entry of each of the five argument arrays is a real number. -/
theorem reals_of_finite [Cert.Pre_finite_inputs.Facts]
    (a0 : FVec Ideal Cert.Pre_finite_inputs.S16384x2176 .f32) (a1 : FVec Ideal Cert.Pre_finite_inputs.S2176x64 .f32)
    (a2 : FVec Ideal Cert.Pre_finite_inputs.S64 .f32) (a3 : FVec Ideal Cert.Pre_finite_inputs.S64x1 .f32)
    (a4 : FVec Ideal Cert.Pre_finite_inputs.S1 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨reals_of_all _ _ _ a0 _ e0, reals_of_all _ _ _ a1 _ e1, reals_of_all _ _ _ a2 _ e2,
    reals_of_all _ _ _ a3 _ e3, reals_of_all _ _ _ a4 _ e4⟩

end Cert.Perceptron

end
-- ==== Proof.RefValue.lean ====
/-
  The reference program's result, read index by index at the exact-arithmetic instance, is the specification.

  The reference computes, for batch row `r`,
      hidden r h = (∑ d, x r d * Wh d h) + bh h,
      score r    = (∑ h, hidden r h * Wo h 0) + bo 0,
      out r 0    = 1 / (1 + e^(-score r)),
  with the sigmoid spelled as a division of the constant one by one plus an exponential. Each operation's value
  at an index is read from its operands at an index; composing these reads expresses the output entry `[r, 0]`
  through entries of the five argument arrays at composed index functions. Those index functions are identified,
  coordinate by coordinate, with the plain row/column indices of the specification; the float operations are the
  extended reals' own; and the constant's word denotes the number one. What remains is the specification's
  `logistic (score r)` by unfolding definitions.
-/
import proofs.«109789_g63591285784749_cont_sun_c4_171_19_alg».proof.Proof.Gen.ReferenceIdeal.Read
import proofs.«109789_g63591285784749_cont_sun_c4_171_19_alg».proof.Proof.Spec
import Idealize.ShloMosaic.PureOps.Ideal
import Idealize.ShloMosaic.PureOps.IdealRules
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-- The single-precision word `0x3F800000` (sign 0, biased exponent 127, zero fraction) denotes the number one. -/
theorem one_word : Ideal.ofBits .f32 0x3F800000#32 = 1 := IdealRules.sign_bit.ideal_onePat .f32

/-- The reference's output array is the specification's probabilities: entry `[r, 0]` is the sigmoid of row `r`'s
    score, the score in the arrangement "hidden layer, then output layer". -/
theorem reference_eq_prob (x0 : (⟨Cert.ReferenceIdeal.S16384x2176, .f32⟩ : BufTy).Contents (Elt Ideal)) (x1 : (⟨Cert.ReferenceIdeal.S2176x64, .f32⟩ : BufTy).Contents (Elt Ideal))
    (x2 : (⟨Cert.ReferenceIdeal.S64, .f32⟩ : BufTy).Contents (Elt Ideal)) (x3 : (⟨Cert.ReferenceIdeal.S64x1, .f32⟩ : BufTy).Contents (Elt Ideal)) (x4 : (⟨Cert.ReferenceIdeal.S1, .f32⟩ : BufTy).Contents (Elt Ideal)) :
    Cert.ReferenceIdeal.Read.val_main_v13 (F := Ideal) x0 x1 x2 x3 x4 = Cert.Perceptron.prob x0 x1 x2 x3 x4 := by
  funext i
  -- an index of the `[16384, 1]` result is a row `r` and a column, and the only column is `0`
  obtain ⟨r, z, rfl⟩ : ∃ (r : Fin 16384) (z : Fin 1), i = ix2 r z := ⟨i 0, i 1, eq_ix2 i⟩
  obtain rfl : z = 0 := Subsingleton.elim _ _
  -- read the result at `[r, 0]` through every operation, outermost first: the division, the two constant ones,
  -- the addition of one, the exponential, the negation, the output bias, the output layer's contraction …
  rw [val_main_v13_apply, val_main_v12_apply, val_main_cst_0_apply, val_main_v11_apply, val_main_v10_apply,
    val_main_cst_apply, val_main_v9_apply, val_main_v8_apply, val_main_v7_apply, val_main_v4_apply,
    val_main_v6_apply, val_main_v5_apply]
  -- … and, under the sum over the hidden units, the hidden bias and the hidden layer's contraction
  simp only [val_main_v3_apply, val_main_v0_apply, val_main_v2_apply, val_main_v1_apply]
  -- the composed index functions, coordinate by coordinate:
  -- the input is read at row `r`, feature `d`,
  have e0l : ∀ (h : Fin 64) (d : Fin 2176), lidx_main_v0 (lidx_main_v4 (ix2 r (0 : Fin 1)) h) d = ix2 r d := fun h d =>
    funext fun a => Fin.ext (by match a with | ⟨0, _⟩ => rfl | ⟨1, _⟩ => rfl)
  -- the hidden weights at feature `d`, hidden unit `h`,
  have e0r : ∀ (h : Fin 64) (d : Fin 2176), ridx_main_v0 (lidx_main_v4 (ix2 r (0 : Fin 1)) h) d = ix2 d h := fun h d =>
    funext fun a => Fin.ext (by match a with | ⟨0, _⟩ => rfl | ⟨1, _⟩ => rfl)
  -- the hidden bias, broadcast along the rows, at hidden unit `h`,
  have e2 : ∀ h : Fin 64, idx_main_v1 (idx_main_v2 (lidx_main_v4 (ix2 r (0 : Fin 1)) h)) = ix1 h := fun h =>
    funext fun a => Fin.ext (by match a with | ⟨0, _⟩ => rfl)
  -- the output weights at hidden unit `h`, column `0`,
  have e4r : ∀ h : Fin 64, ridx_main_v4 (ix2 r (0 : Fin 1)) h = ix2 h (0 : Fin 1) := fun h =>
    funext fun a => Fin.ext (by match a with | ⟨0, _⟩ => rfl | ⟨1, _⟩ => rfl)
  -- and the output bias, broadcast along the rows, at its only entry.
  have e6 : idx_main_v5 (idx_main_v6 (ix2 r (0 : Fin 1))) = ix1 (0 : Fin 1) :=
    funext fun a => Fin.ext (by match a with | ⟨0, _⟩ => rfl)
  -- on the extended reals the float division, addition, exponential and negation are the exact ones, and the
  -- constant is one: the entry is `1 / (1 + e^(-score r))`
  simp only [e0l, e0r, e2, e4r, e6, Ideal.hostDivf_def, Ideal.addf_def, Ideal.hostUnary_exp_def, Ideal.hostNegf_def,
    Ideal.negf_def, Ideal.ofBits_def, one_word]
  -- which is the specification's sigmoid of the score, by definition
  rfl

end Cert.ReferenceIdeal.RefValue

end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.Payloads.lean ====
/-
  The body's three stored values, read entry by entry over the extended reals.

  The body folds the two layers' weights once: the row  w d = ∑ h, Wo h * Wh d h  (a product that contracts the
  hidden axis, axis 0 of the column Wo against axis 1 of Wh) and the scalar  c = ∑ h, bh h * Wo h + bo.  At every
  batch tile it then stores  sigmoid (∑ d, w d * x q d + c)  for each row q of the tile, as a [1, 1, rows] block.
  Each product accumulates into the zero matrix, so at an entry it is just the sum over its one contracted axis.
-/
import proofs.«109789_g63591285784749_cont_sun_c4_171_19_alg».proof.Proof.Gen.KernelIdeal.Skeleton
import proofs.«109789_g63591285784749_cont_sun_c4_171_19_alg».proof.Proof.LibDotNT
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Folded

open Cert.KernelIdeal Cert.KernelIdeal.Gen Idealize.ShloMosaic Idealize.ShloMosaic.ValueIdx

/-! ## The folded weights: contract the hidden axis of the column with the hidden axis of the matrix -/

theorem foldW_lhs0 (i : S1x2176.Idx) (q : dot_S64x1_S2176x64_S1x2176_0_1_1_0_n_n.contr.Idx) :
    (dot_S64x1_S2176x64_S1x2176_0_1_1_0_n_n.lhsIdx i q 0).val = (q ⟨0, by decide⟩).val :=
  dot_S64x1_S2176x64_S1x2176_0_1_1_0_n_n.lhsIdx_val_of_single rfl i q
theorem foldW_lhs1 (i : S1x2176.Idx) (q : dot_S64x1_S2176x64_S1x2176_0_1_1_0_n_n.contr.Idx) :
    (dot_S64x1_S2176x64_S1x2176_0_1_1_0_n_n.lhsIdx i q 1).val = (i 0).val := by
  unfold DotDims.lhsIdx
  rw [dif_neg (show ¬(1 : Fin S64x1.rank) ∈ dot_S64x1_S2176x64_S1x2176_0_1_1_0_n_n.lhsBatch by decide), dif_pos (show (1 : Fin S64x1.rank) ∈ dot_S64x1_S2176x64_S1x2176_0_1_1_0_n_n.lhsNonContracting by decide)]
  rfl
theorem foldW_rhs0 (i : S1x2176.Idx) (q : dot_S64x1_S2176x64_S1x2176_0_1_1_0_n_n.contr.Idx) :
    (dot_S64x1_S2176x64_S1x2176_0_1_1_0_n_n.rhsIdx i q 0).val = (i 1).val := by
  unfold DotDims.rhsIdx
  rw [dif_neg (show ¬(0 : Fin S2176x64.rank) ∈ dot_S64x1_S2176x64_S1x2176_0_1_1_0_n_n.rhsBatch by decide), dif_pos (show (0 : Fin S2176x64.rank) ∈ dot_S64x1_S2176x64_S1x2176_0_1_1_0_n_n.rhsNonContracting by decide)]
  rfl
theorem foldW_rhs1 (i : S1x2176.Idx) (q : dot_S64x1_S2176x64_S1x2176_0_1_1_0_n_n.contr.Idx) :
    (dot_S64x1_S2176x64_S1x2176_0_1_1_0_n_n.rhsIdx i q 1).val = (q ⟨0, by decide⟩).val :=
  dot_S64x1_S2176x64_S1x2176_0_1_1_0_n_n.rhsIdx_val_of_single rfl i q

/-- The product of the output column `[64, 1]` with the hidden matrix `[2176, 64]`, contracting the hidden axis of
    both, at `(0, d)`: the sum over `h` of `wo (h, 0) * wh (d, h)`. -/
theorem foldW_apply (wo : FVec Ideal S64x1 .f32) (wh : FVec Ideal S2176x64 .f32) (d : Fin 2176) :
    FloatOps.matmul dot_S64x1_S2176x64_S1x2176_0_1_1_0_n_n none wo wh (constant S1x2176 .f32 0x00000000#32) (ix2 (0 : Fin 1) d)
      = ∑ h : Fin 64, wo (ix2 h (0 : Fin 1)) * wh (ix2 d h) := by
  rw [Ideal.matmul_constant_zero_apply, ← Equiv.sum_comp (contrEquiv1 dot_S64x1_S2176x64_S1x2176_0_1_1_0_n_n 64 rfl rfl).symm]
  refine Finset.sum_congr rfl fun k _ => ?_
  have hk := contrEquiv1_symm_val dot_S64x1_S2176x64_S1x2176_0_1_1_0_n_n 64 rfl rfl k
  have el : dot_S64x1_S2176x64_S1x2176_0_1_1_0_n_n.lhsIdx (ix2 (0 : Fin 1) d) ((contrEquiv1 dot_S64x1_S2176x64_S1x2176_0_1_1_0_n_n 64 rfl rfl).symm k) = ix2 k (0 : Fin 1) := funext fun a => Fin.ext (by
    match a with
    | ⟨0, _⟩ => exact (foldW_lhs0 _ _).trans hk
    | ⟨1, _⟩ => exact foldW_lhs1 _ _)
  have er : dot_S64x1_S2176x64_S1x2176_0_1_1_0_n_n.rhsIdx (ix2 (0 : Fin 1) d) ((contrEquiv1 dot_S64x1_S2176x64_S1x2176_0_1_1_0_n_n 64 rfl rfl).symm k) = ix2 d k := funext fun a => Fin.ext (by
    match a with
    | ⟨0, _⟩ => exact foldW_rhs0 _ _
    | ⟨1, _⟩ => exact (foldW_rhs1 _ _).trans hk)
  rw [el, er]

/-! ## The folded bias: a row times a column -/

theorem foldB_lhs0 (i : S1x1.Idx) (q : dot_S1x64_S64x1_S1x1_1_0_0_1_n_n.contr.Idx) :
    (dot_S1x64_S64x1_S1x1_1_0_0_1_n_n.lhsIdx i q 0).val = (i 0).val := by
  unfold DotDims.lhsIdx
  rw [dif_neg (show ¬(0 : Fin S1x64.rank) ∈ dot_S1x64_S64x1_S1x1_1_0_0_1_n_n.lhsBatch by decide), dif_pos (show (0 : Fin S1x64.rank) ∈ dot_S1x64_S64x1_S1x1_1_0_0_1_n_n.lhsNonContracting by decide)]
  rfl
theorem foldB_lhs1 (i : S1x1.Idx) (q : dot_S1x64_S64x1_S1x1_1_0_0_1_n_n.contr.Idx) :
    (dot_S1x64_S64x1_S1x1_1_0_0_1_n_n.lhsIdx i q 1).val = (q ⟨0, by decide⟩).val :=
  dot_S1x64_S64x1_S1x1_1_0_0_1_n_n.lhsIdx_val_of_single rfl i q
theorem foldB_rhs0 (i : S1x1.Idx) (q : dot_S1x64_S64x1_S1x1_1_0_0_1_n_n.contr.Idx) :
    (dot_S1x64_S64x1_S1x1_1_0_0_1_n_n.rhsIdx i q 0).val = (q ⟨0, by decide⟩).val :=
  dot_S1x64_S64x1_S1x1_1_0_0_1_n_n.rhsIdx_val_of_single rfl i q
theorem foldB_rhs1 (i : S1x1.Idx) (q : dot_S1x64_S64x1_S1x1_1_0_0_1_n_n.contr.Idx) :
    (dot_S1x64_S64x1_S1x1_1_0_0_1_n_n.rhsIdx i q 1).val = (i 1).val := by
  unfold DotDims.rhsIdx
  rw [dif_neg (show ¬(1 : Fin S64x1.rank) ∈ dot_S1x64_S64x1_S1x1_1_0_0_1_n_n.rhsBatch by decide), dif_pos (show (1 : Fin S64x1.rank) ∈ dot_S1x64_S64x1_S1x1_1_0_0_1_n_n.rhsNonContracting by decide)]
  rfl

/-- The bias row `[1, 64]` times the output column `[64, 1]`, at its one entry: the sum over `h` of
    `bh (0, h) * wo (h, 0)`. -/
theorem foldB_apply (bh : FVec Ideal S1x64 .f32) (wo : FVec Ideal S64x1 .f32) :
    FloatOps.matmul dot_S1x64_S64x1_S1x1_1_0_0_1_n_n none bh wo (constant S1x1 .f32 0x00000000#32) (ix2 (0 : Fin 1) (0 : Fin 1))
      = ∑ h : Fin 64, bh (ix2 (0 : Fin 1) h) * wo (ix2 h (0 : Fin 1)) := by
  rw [Ideal.matmul_constant_zero_apply, ← Equiv.sum_comp (contrEquiv1 dot_S1x64_S64x1_S1x1_1_0_0_1_n_n 64 rfl rfl).symm]
  refine Finset.sum_congr rfl fun k _ => ?_
  have hk := contrEquiv1_symm_val dot_S1x64_S64x1_S1x1_1_0_0_1_n_n 64 rfl rfl k
  have el : dot_S1x64_S64x1_S1x1_1_0_0_1_n_n.lhsIdx (ix2 (0 : Fin 1) (0 : Fin 1)) ((contrEquiv1 dot_S1x64_S64x1_S1x1_1_0_0_1_n_n 64 rfl rfl).symm k) = ix2 (0 : Fin 1) k := funext fun a => Fin.ext (by
    match a with
    | ⟨0, _⟩ => exact foldB_lhs0 _ _
    | ⟨1, _⟩ => exact (foldB_lhs1 _ _).trans hk)
  have er : dot_S1x64_S64x1_S1x1_1_0_0_1_n_n.rhsIdx (ix2 (0 : Fin 1) (0 : Fin 1)) ((contrEquiv1 dot_S1x64_S64x1_S1x1_1_0_0_1_n_n 64 rfl rfl).symm k) = ix2 k (0 : Fin 1) := funext fun a => Fin.ext (by
    match a with
    | ⟨0, _⟩ => exact (foldB_rhs0 _ _).trans hk
    | ⟨1, _⟩ => exact foldB_rhs1 _ _)
  rw [el, er]

/-! ## The three stored values at an entry -/

/-- The folded weight row the first grid point stores: entry `d` is `∑ h, wo (h, 0) * wh (d, h)`. -/
theorem weights_apply (wo : FVec Ideal S64x1 .f32) (wh : FVec Ideal S2176x64 .f32) (d : Fin 2176) :
    k0_pay1 (F := Ideal) wo wh (ix2 (0 : Fin 1) d) = ∑ h : Fin 64, wo (ix2 h (0 : Fin 1)) * wh (ix2 d h) := by
  unfold k0_pay1
  refine (congrFun (shapeCast_self _ _) _).trans ?_
  exact foldW_apply wo wh d

/-- The folded bias the first grid point stores: `∑ h, bh (0, h) * wo (h, 0) + bo (0, 0)`. -/
theorem bias_apply (bh : FVec Ideal S1x64 .f32) (wo : FVec Ideal S64x1 .f32) (bo : FVec Ideal S1x1 .f32) :
    k0_pay2 (F := Ideal) bh wo bo (ix2 (0 : Fin 1) (0 : Fin 1))
      = (∑ h : Fin 64, bh (ix2 (0 : Fin 1) h) * wo (ix2 h (0 : Fin 1))) + bo (ix2 (0 : Fin 1) (0 : Fin 1)) := by
  unfold k0_pay2
  refine (congrFun (shapeCast_self _ _) _).trans ?_
  show FloatOps.matmul dot_S1x64_S64x1_S1x1_1_0_0_1_n_n none (shapeCast S1x64 bh shapeCasts_S1x64_S1x64) wo (constant S1x1 .f32 0x00000000#32) (ix2 (0 : Fin 1) (0 : Fin 1))
      + shapeCast S1x1 bo shapeCasts_S1x1_S1x1 (ix2 (0 : Fin 1) (0 : Fin 1)) = _
  rw [shapeCast_self, shapeCast_self]
  exact congrArg (· + bo (ix2 (0 : Fin 1) (0 : Fin 1))) (foldB_apply bh wo)

/-- What every grid point stores for row `q` of its tile: the sigmoid of the row's dot product with the folded
    weights `w`, plus the folded bias `c`. -/
theorem tile_apply (w : FVec Ideal S1x2176 .f32) (x : FVec Ideal S1024x2176 .f32) (c : FVec Ideal S1x1 .f32) (q : Fin 1024) :
    k0_pay3 (F := Ideal) w x c (ix3 (0 : Fin 1) (0 : Fin 1) q)
      = Ideal.logistic ((∑ d : Fin 2176, w (ix2 (0 : Fin 1) d) * x (ix2 q d)) + c (ix2 (0 : Fin 1) (0 : Fin 1))) := by
  unfold k0_pay3
  refine (shapeCast_ab_1ab_apply _ _ (0 : Fin 1) (0 : Fin 1) q).trans ?_
  show Ideal.logistic (FloatOps.matmul dot_S1x2176_S1024x2176_S1x1024_1_1_0_0_n_n none w x (constant S1x1024 .f32 0x00000000#32) (ix2 (0 : Fin 1) q)
      + broadcastTo S1x1024 c broadcasts_S1x1_S1x1024 (ix2 (0 : Fin 1) q)) = _
  have hb : broadcastTo S1x1024 c broadcasts_S1x1_S1x1024 (ix2 (0 : Fin 1) q) = c (ix2 (0 : Fin 1) (0 : Fin 1)) :=
    broadcastTo_apply c broadcasts_S1x1_S1x1024 (ix2 (0 : Fin 1) q) (ix2 (0 : Fin 1) (0 : Fin 1)) fun a => by
      match a with
      | ⟨0, _⟩ => show 0 = if (1 : Nat) = 1 then 0 else _; rw [if_pos rfl]
      | ⟨1, _⟩ => show 0 = if (1 : Nat) = 1 then 0 else _; rw [if_pos rfl]
  rw [hb, matmul_nt_zero_apply dot_S1x2176_S1024x2176_S1x1024_1_1_0_0_n_n rfl rfl rfl rfl rfl rfl rfl rfl none w x (0 : Fin 1) q]

end Cert.KernelIdeal.Folded

end
-- ==== Proof.Pieces.lean ====
/-
  What the body leaves behind at a grid point, as values.

  At the first grid point the body stores the folded weight row and the folded bias into its two scratch buffers,
  reads both back, and stores the tile's sigmoids computed from them. At every later point it stores nothing into
  the scratch buffers and computes the tile's sigmoids from what they already hold. Each store covers its whole
  buffer from offset zero, so what a buffer holds afterwards is the stored value itself, and a whole-buffer load of
  a buffer holding `x` reads `x`.
-/
import proofs.«109789_g63591285784749_cont_sun_c4_171_19_alg».proof.Proof.Gen.KernelIdeal.Frame
import Idealize.ShloMosaic.Lib.Pipeline.Value
import Idealize.ShloMosaic.Lib.Tactic

noncomputable section

namespace Cert.KernelIdeal.Folded

open Cert.KernelIdeal Cert.KernelIdeal.Gen Idealize.ShloMosaic Idealize.ShloMosaic.TcCoe Idealize.SL.Sem Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A later grid point: the tile's sigmoids from the weights `w` and bias `b` the scratch buffers hold. -/
theorem tile_later (c : Dev nD) (i : grid0.Coords) (arg1 : Memref sig .tc .vmem S1024x2176 .f32) (harg1 : arg1.IsWhole) (arg2 : Memref sig .tc .vmem S2176x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S1x2176 .f32) (harg7 : arg7.IsWhole) (arg8 : Memref sig .tc .vmem S1x1 .f32) (harg8 : arg8.IsWhole) (hc0 : ¬cond0_0 i)
    (x0 : Vec F S1024x2176 .f32) (x1 : Vec F S2176x64 .f32) (x2 : Vec F S1x64 .f32) (x3 : Vec F S64x1 .f32) (x4 : Vec F S1x1 .f32) (w : Vec F S1x2176 .f32) (b : Vec F S1x1 .f32) :
    out0_B_5 c i arg1 harg1 arg2 harg2 arg3 harg3 arg4 harg4 arg5 harg5 arg6 harg6 arg7 harg7 arg8 harg8 hc0 x0 x1 x2 x3 x4 w b = k0_pay3 w x0 b := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 w b)]
  unfold kernelRun0_B
  dsimp only
  rw [View.canon_unit_zero zero3]
  simp only [View.readAt_eq_ld, harg1.read_unread, harg7.read_unread, harg8.read_unread,
    View.ld_unit_zero (S := S1x2176) zero2, View.ld_unit_zero (S := S1024x2176) zero2, View.ld_unit_zero (S := S1x1) zero2]

/-- The first grid point leaves the folded weight row in the first scratch buffer, -/
theorem weights_first (c : Dev nD) (i : grid0.Coords) (arg1 : Memref sig .tc .vmem S1024x2176 .f32) (harg1 : arg1.IsWhole) (arg2 : Memref sig .tc .vmem S2176x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S1x2176 .f32) (harg7 : arg7.IsWhole) (arg8 : Memref sig .tc .vmem S1x1 .f32) (harg8 : arg8.IsWhole) (hc0 : cond0_0 i)
    (x0 : Vec F S1024x2176 .f32) (x1 : Vec F S2176x64 .f32) (x2 : Vec F S1x64 .f32) (x3 : Vec F S64x1 .f32) (x4 : Vec F S1x1 .f32) :
    sout0_A_0 c i arg1 harg1 arg2 harg2 arg3 harg3 arg4 harg4 arg5 harg5 arg6 harg6 arg7 harg7 arg8 harg8 hc0 x0 x1 x2 x3 x4 = k0_pay1 x3 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero zero2]
  simp only [View.readAt_eq_ld, harg2.read_unread, harg4.read_unread,
    View.ld_unit_zero (S := S64x1) zero2, View.ld_unit_zero (S := S2176x64) zero2]

/-- the folded bias in the second, -/
theorem bias_first (c : Dev nD) (i : grid0.Coords) (arg1 : Memref sig .tc .vmem S1024x2176 .f32) (harg1 : arg1.IsWhole) (arg2 : Memref sig .tc .vmem S2176x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S1x2176 .f32) (harg7 : arg7.IsWhole) (arg8 : Memref sig .tc .vmem S1x1 .f32) (harg8 : arg8.IsWhole) (hc0 : cond0_0 i)
    (x0 : Vec F S1024x2176 .f32) (x1 : Vec F S2176x64 .f32) (x2 : Vec F S1x64 .f32) (x3 : Vec F S64x1 .f32) (x4 : Vec F S1x1 .f32) :
    sout0_A_1 c i arg1 harg1 arg2 harg2 arg3 harg3 arg4 harg4 arg5 harg5 arg6 harg6 arg7 harg7 arg8 harg8 hc0 x0 x1 x2 x3 x4 = k0_pay2 x2 x3 x4 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero zero2]
  simp only [View.readAt_eq_ld, harg3.read_unread, harg4.read_unread, harg5.read_unread,
    View.ld_unit_zero (S := S1x64) zero2, View.ld_unit_zero (S := S64x1) zero2, View.ld_unit_zero (S := S1x1) zero2]

/-- and, in the output's buffer, the tile's sigmoids computed from those two stored values read back. -/
theorem tile_first (c : Dev nD) (i : grid0.Coords) (arg1 : Memref sig .tc .vmem S1024x2176 .f32) (harg1 : arg1.IsWhole) (arg2 : Memref sig .tc .vmem S2176x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S1x2176 .f32) (harg7 : arg7.IsWhole) (arg8 : Memref sig .tc .vmem S1x1 .f32) (harg8 : arg8.IsWhole) (hc0 : cond0_0 i)
    (x0 : Vec F S1024x2176 .f32) (x1 : Vec F S2176x64 .f32) (x2 : Vec F S1x64 .f32) (x3 : Vec F S64x1 .f32) (x4 : Vec F S1x1 .f32) :
    out0_A_5 c i arg1 harg1 arg2 harg2 arg3 harg3 arg4 harg4 arg5 harg5 arg6 harg6 arg7 harg7 arg8 harg8 hc0 x0 x1 x2 x3 x4 = k0_pay3 (k0_pay1 x3 x1) x0 (k0_pay2 x2 x3 x4) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero zero3, View.readCov_unit_zero (S := S1x2176) _ zero2, View.readCov_unit_zero (S := S1x1) _ zero2]
  simp only [View.readAt_eq_ld, harg1.read_unread, harg2.read_unread, harg3.read_unread, harg4.read_unread, harg5.read_unread,
    View.ld_unit_zero (S := S1024x2176) zero2, View.ld_unit_zero (S := S2176x64) zero2, View.ld_unit_zero (S := S1x64) zero2,
    View.ld_unit_zero (S := S64x1) zero2, View.ld_unit_zero (S := S1x1) zero2]

end Cert.KernelIdeal.Folded

end
-- ==== Proof.Chain.lean ====
/-
  What the buffers hold after each grid point.

  The folded weight row and the folded bias are computed once, at the first grid point, from that point's blocks of
  the weight arrays; no later point stores into the two scratch buffers, so they hold the same two values after every
  point. The output's staging buffer holds, after point `n`, the sigmoids of tile `n`'s rows computed from those
  two values. This is an induction on the point: the first point is the folding case, every later one the carrying
  case.
-/
import proofs.«109789_g63591285784749_cont_sun_c4_171_19_alg».proof.Proof.Pieces

noncomputable section

namespace Cert.KernelIdeal.Folded

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The first grid point. -/
def first : Fin cfg0.N := ⟨0, by rw [show cfg0.N = 16 from N_0]; decide⟩

/-- The folded weight row: the stored product of the first point's blocks of the output column and the hidden matrix. -/
def weights (c : Dev nD) : Vec F S1x2176 .f32 := k0_pay1 (iblk m c 3 first) (iblk m c 1 first)

/-- The folded bias: the stored value of the first point's blocks of the hidden bias, the output column and the output bias. -/
def bias (c : Dev nD) : Vec F S1x1 .f32 := k0_pay2 (iblk m c 2 first) (iblk m c 3 first) (iblk m c 4 first)

/-- After point `n`: the output's buffer holds tile `n`'s sigmoids from the folded weights and bias, and the two
    scratch buffers hold the folded weights and bias. -/
theorem outsAt_eq (c : Dev nD) : ∀ (n : ℕ) (h : n < cfg0.N),
    outsAt0 m c n h = (k0_pay3 (weights m c) (iblk m c 0 ⟨n, h⟩) (bias m c), weights m c, bias m c)
  | 0, h => by
    rw [outsAt0_A m c ⟨0, h⟩ rfl]
    exact congrArg₂ Prod.mk
      (tile_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩))
      (congrArg₂ Prod.mk
        (weights_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩))
        (bias_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)))
  | n + 1, h => by
    have hN : cfg0.N = 16 := N_0
    have hB : ¬(⟨n + 1, h⟩ : Fin cfg0.N).val % 16 = 0 := by dsimp only; omega
    rw [outsAt0_B m c ⟨n + 1, h⟩ hB, tile_later]
    show (k0_pay3 (outsAt0 m c n _).2.1 (iblk m c 0 ⟨n + 1, h⟩) (outsAt0 m c n _).2.2, (outsAt0 m c n _).2.1, (outsAt0 m c n _).2.2) = _
    rw [outsAt_eq c n]

end Cert.KernelIdeal.Folded

end
-- ==== Proof.Blocks.lean ====
/-
  The blocks the body loads, as entries of the argument arrays.

  The batch window moves one tile of 1024 rows per grid point, so row `q` of its block at point `t` is row
  `1024 t + q` of the input. The three weight windows and the two bias windows never move: their block at every
  point is the whole array. The two biases reach the region as row vectors, reshaped from the argument vectors
  before the region: entry `(0, h)` of the reshaped hidden bias is entry `h` of the argument, and the one entry of
  the reshaped output bias is the argument's one entry.
-/
import proofs.«109789_g63591285784749_cont_sun_c4_171_19_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Folded

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- Where each window's block sits at grid point `t`: the batch window and the output window at tile `t` on their
    leading axis, every other block index zero. Decided over the sixteen points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Row `q` of the batch tile at point `t` is row `r = 1024 t + q` of the input array. -/
theorem rows_block (c : Dev nD) (t : Fin cfg0.N) (q : Fin 1024) (d : Fin 2176) (r : Fin 16384) (hr : r.val = t.val * 1024 + q.val) :
    iblk m c 0 t (ix2 q d) = m ((c : Thread nD τ).loc main_arg0) (ix2 r d) := by
  obtain ⟨e0, e1, -⟩ := block_indices t
  unfold iblk
  rw [View.read_apply]
  show V m c main_arg0 (((cfg0.win 0).blk t).view.emb (ix2 q d)) = _
  refine (congrFun (V_main_arg0 m c) _).trans (congrArg _ (funext fun a => Fin.ext ?_))
  match a with
  | ⟨0, _⟩ => show win0_0.index t (0 : Fin 2) * 1024 + 1 * q.val = r.val; rw [e0, hr]; omega
  | ⟨1, _⟩ => show win0_0.index t (1 : Fin 2) * 2176 + 1 * d.val = d.val; rw [e1]; omega

/-- The hidden matrix's block is the whole matrix. -/
theorem hidden_block (c : Dev nD) (t : Fin cfg0.N) (d : Fin 2176) (h : Fin 64) :
    iblk m c 1 t (ix2 d h) = m ((c : Thread nD τ).loc main_arg1) (ix2 d h) := by
  obtain ⟨-, -, e0, e1, -⟩ := block_indices t
  unfold iblk
  rw [View.read_apply]
  show V m c main_arg1 (((cfg0.win 1).blk t).view.emb (ix2 d h)) = _
  refine (congrFun (V_main_arg1 m c) _).trans (congrArg _ (funext fun a => Fin.ext ?_))
  match a with
  | ⟨0, _⟩ => show win0_1.index t (0 : Fin 2) * 2176 + 1 * d.val = d.val; rw [e0]; omega
  | ⟨1, _⟩ => show win0_1.index t (1 : Fin 2) * 64 + 1 * h.val = h.val; rw [e1]; omega

/-- The output column's block is the whole column. -/
theorem column_block (c : Dev nD) (t : Fin cfg0.N) (h : Fin 64) (z : Fin 1) :
    iblk m c 3 t (ix2 h z) = m ((c : Thread nD τ).loc main_arg3) (ix2 h z) := by
  obtain ⟨-, -, -, -, -, -, e0, e1, -⟩ := block_indices t
  unfold iblk
  rw [View.read_apply]
  show V m c main_arg3 (((cfg0.win 3).blk t).view.emb (ix2 h z)) = _
  refine (congrFun (V_main_arg3 m c) _).trans (congrArg _ (funext fun a => Fin.ext ?_))
  match a with
  | ⟨0, _⟩ => show win0_3.index t (0 : Fin 2) * 64 + 1 * h.val = h.val; rw [e0]; omega
  | ⟨1, _⟩ => show win0_3.index t (1 : Fin 2) * 1 + 1 * z.val = z.val; rw [e1]; omega

/-- The hidden bias as the region finds it: the argument vector reshaped to a row. -/
theorem hidden_bias_row (c : Dev nD) :
    (V m c main_v0 : S1x64.Idx → Elt F .f32) = shapeCast S1x64 (m ((c : Thread nD τ).loc main_arg2)) shapeCasts_S64_S1x64 := by
  show StableHlo.after hostOps0 (fun b => m (c, b)) (Proc.devRef .tc main_v0) = _
  after_results
  rfl

/-- The output bias as the region finds it: the argument vector reshaped to a one-by-one matrix. -/
theorem output_bias_cell (c : Dev nD) :
    (V m c main_v1 : S1x1.Idx → Elt F .f32) = shapeCast S1x1 (m ((c : Thread nD τ).loc main_arg4)) shapeCasts_S1_S1x1 := by
  show StableHlo.after hostOps0 (fun b => m (c, b)) (Proc.devRef .tc main_v1) = _
  after_results
  rfl

/-- Entry `(0, h)` of the hidden bias's block is entry `h` of the argument vector. -/
theorem hidden_bias_block (c : Dev nD) (t : Fin cfg0.N) (z : Fin 1) (h : Fin 64) :
    iblk m c 2 t (ix2 z h) = m ((c : Thread nD τ).loc main_arg2) (ix1 h) := by
  obtain ⟨-, -, -, -, e0, e1, -⟩ := block_indices t
  unfold iblk
  rw [View.read_apply]
  show V m c main_v0 (((cfg0.win 2).blk t).view.emb (ix2 z h)) = _
  refine (congrFun (hidden_bias_row m c) _).trans ?_
  refine Eq.trans (congrArg _ (funext fun a => Fin.ext ?_)) (shapeCast_a_1a_apply _ shapeCasts_S64_S1x64 z h)
  match a with
  | ⟨0, _⟩ => show win0_2.index t (0 : Fin 2) * 1 + 1 * z.val = z.val; rw [e0]; omega
  | ⟨1, _⟩ => show win0_2.index t (1 : Fin 2) * 64 + 1 * h.val = h.val; rw [e1]; omega

/-- The one entry of the output bias's block is the argument vector's one entry. -/
theorem output_bias_block (c : Dev nD) (t : Fin cfg0.N) (z z' : Fin 1) :
    iblk m c 4 t (ix2 z z') = m ((c : Thread nD τ).loc main_arg4) (ix1 z') := by
  obtain ⟨-, -, -, -, -, -, -, -, e0, e1, -⟩ := block_indices t
  unfold iblk
  rw [View.read_apply]
  show V m c main_v1 (((cfg0.win 4).blk t).view.emb (ix2 z z')) = _
  refine (congrFun (output_bias_cell m c) _).trans ?_
  refine Eq.trans (congrArg _ (funext fun a => Fin.ext ?_)) (shapeCast_a_1a_apply _ shapeCasts_S1_S1x1 z z')
  match a with
  | ⟨0, _⟩ => show win0_4.index t (0 : Fin 2) * 1 + 1 * z.val = z.val; rw [e0]; omega
  | ⟨1, _⟩ => show win0_4.index t (1 : Fin 2) * 1 + 1 * z'.val = z'.val; rw [e1]; omega

end Cert.KernelIdeal.Folded

end
-- ==== Proof.Tiles.lean ====
/-
  The array the region leaves: tile by tile, the sigmoid of each row's score in the folded arrangement.

  Grid point `t` writes back one block `[1, 1, 1024]` at block index `(t, 0, 0)` of the `[16, 1, 1024]` result:
  entry `(t, 0, q)` is the sigmoid of the folded score of batch row `1024 t + q`. Every index of the result lies in
  the block of the point named by its leading coordinate, so after the last point the whole array is that function.
-/
import proofs.«109789_g63591285784749_cont_sun_c4_171_19_alg».proof.Proof.Spec
import proofs.«109789_g63591285784749_cont_sun_c4_171_19_alg».proof.Proof.Payloads
import proofs.«109789_g63591285784749_cont_sun_c4_171_19_alg».proof.Proof.Chain
import proofs.«109789_g63591285784749_cont_sun_c4_171_19_alg».proof.Proof.Blocks

noncomputable section

open scoped BigOperators

namespace Cert.KernelIdeal.Folded

open Cert.KernelIdeal Cert.KernelIdeal.Gen Idealize.ShloMosaic Idealize.ShloMosaic.TcCoe Idealize.SL.Sem Idealize.ShloMosaic.ValueIdx
open Idealize.ShloMosaic.Pipeline (Dat)
open Cert.Perceptron (foldedScore)

variable (m : (ℓ : Loc nD τ sig) → Buf (Elt Ideal) ℓ)

/-- The five argument arrays on core `c`, as functions into the extended reals. -/
abbrev inputs (c : Dev nD) : (⟨2, ![16384, 2176]⟩ : Shape).Idx → EReal := m ((c : Thread nD τ).loc main_arg0)
abbrev hiddenW (c : Dev nD) : (⟨2, ![2176, 64]⟩ : Shape).Idx → EReal := m ((c : Thread nD τ).loc main_arg1)
abbrev hiddenB (c : Dev nD) : (⟨1, ![64]⟩ : Shape).Idx → EReal := m ((c : Thread nD τ).loc main_arg2)
abbrev outputW (c : Dev nD) : (⟨2, ![64, 1]⟩ : Shape).Idx → EReal := m ((c : Thread nD τ).loc main_arg3)
abbrev outputB (c : Dev nD) : (⟨1, ![1]⟩ : Shape).Idx → EReal := m ((c : Thread nD τ).loc main_arg4)

/-- The batch row an index `(t, 0, q)` of the tiled result stands for: `1024 t + q`. -/
def tileRow (i : (⟨3, ![16, 1, 1024]⟩ : Shape).Idx) : Fin 16384 :=
  ⟨(i 0).val * 1024 + (i 2).val, by
    have h0 : (i 0).val < 16 := (i 0).isLt
    have h2 : (i 2).val < 1024 := (i 2).isLt
    omega⟩

/-- The tiled result as one function of the argument arrays: at `(t, 0, q)` the sigmoid of row `1024 t + q`'s
    folded score. -/
def tiles (a0 : (⟨2, ![16384, 2176]⟩ : Shape).Idx → EReal) (a1 : (⟨2, ![2176, 64]⟩ : Shape).Idx → EReal)
    (a2 : (⟨1, ![64]⟩ : Shape).Idx → EReal) (a3 : (⟨2, ![64, 1]⟩ : Shape).Idx → EReal)
    (a4 : (⟨1, ![1]⟩ : Shape).Idx → EReal) : (⟨3, ![16, 1, 1024]⟩ : Shape).Idx → EReal :=
  fun i => Ideal.logistic (foldedScore a0 a1 a2 a3 a4 (tileRow i))

/-- Entry `d` of the folded weight row, in the argument arrays: `∑ h, Wo (h, 0) * Wh (d, h)`. -/
theorem weights_entry (c : Dev nD) (d : Fin 2176) :
    weights m c (ix2 (0 : Fin 1) d) = ∑ h : Fin 64, (outputW m c) (ix2 h (0 : Fin 1)) * (hiddenW m c) (ix2 d h) :=
  (weights_apply (iblk m c 3 first) (iblk m c 1 first) d).trans
    (Finset.sum_congr rfl fun h _ => congrArg₂ (fun a b : EReal => a * b) (column_block m c first h 0) (hidden_block m c first d h))

/-- The folded bias, in the argument arrays: `∑ h, bh h * Wo (h, 0) + bo 0`. -/
theorem bias_entry (c : Dev nD) :
    bias m c (ix2 (0 : Fin 1) (0 : Fin 1))
      = (∑ h : Fin 64, (hiddenB m c) (ix1 h) * (outputW m c) (ix2 h (0 : Fin 1))) + (outputB m c) (ix1 (0 : Fin 1)) :=
  (bias_apply (iblk m c 2 first) (iblk m c 3 first) (iblk m c 4 first)).trans
    (congrArg₂ (fun a b : EReal => a + b)
      (Finset.sum_congr rfl fun h _ => congrArg₂ (fun a b : EReal => a * b) (hidden_bias_block m c first 0 h) (column_block m c first h 0))
      (output_bias_block m c first 0 0))

/-- What point `t` stores for row `q` of its tile is the sigmoid of batch row `r = 1024 t + q`'s folded score. -/
theorem tile_entry (c : Dev nD) (t : Fin cfg0.N) (q : Fin 1024) (r : Fin 16384) (hr : r.val = t.val * 1024 + q.val) :
    k0_pay3 (F := Ideal) (weights m c) (iblk m c 0 t) (bias m c) (ix3 (0 : Fin 1) (0 : Fin 1) q)
      = Ideal.logistic (foldedScore (inputs m c) (hiddenW m c) (hiddenB m c) (outputW m c) (outputB m c) r) :=
  (tile_apply (weights m c) (iblk m c 0 t) (bias m c) q).trans
    (congrArg Ideal.logistic (congrArg₂ (fun a b : EReal => a + b)
      (Finset.sum_congr rfl fun d _ => congrArg₂ (fun a b : EReal => a * b) (weights_entry m c d) (rows_block m c t q d r hr))
      (bias_entry m c)))

/-- What point `t` writes back is block `t` of the tiled result. -/
theorem flushed_eq (c : Dev nD) (t : Fin cfg0.N) :
    (dats m 0 c).flushed 5 t = ((cfg0.win 5).blk t).view.read (Elt Ideal) (tiles (inputs m c) (hiddenW m c) (hiddenB m c) (outputW m c) (outputB m c)) := by
  show (cfg0.win 5).cut (grid0.coords t) ((dats m 0 c).after 5 t) = _
  rw [after0_5, outsAt_eq]
  obtain ⟨-, -, -, -, -, -, -, -, -, -, e0, e1, e2⟩ := block_indices t
  funext y
  have hy0 : (y 0).val < 1 := (y 0).isLt
  have hy1 : (y 1).val < 1 := (y 1).isLt
  have hy2 : (y 2).val < 1024 := (y 2).isLt
  have hy : y = ix3 (0 : Fin 1) (0 : Fin 1) (⟨(y 2).val, hy2⟩ : Fin 1024) := funext fun a => Fin.ext (by
    match a with
    | ⟨0, _⟩ => show (y 0).val = 0; omega
    | ⟨1, _⟩ => show (y 1).val = 0; omega
    | ⟨2, _⟩ => rfl)
  show k0_pay3 (F := Ideal) (weights m c) (iblk m c 0 t) (bias m c) y = tiles (inputs m c) (hiddenW m c) (hiddenB m c) (outputW m c) (outputB m c) (((cfg0.win 5).blk t).view.emb y)
  refine (congrArg (k0_pay3 (F := Ideal) (weights m c) (iblk m c 0 t) (bias m c)) hy).trans ?_
  refine tile_entry m c t ⟨(y 2).val, hy2⟩ (tileRow (((cfg0.win 5).blk t).view.emb y)) ?_
  show (win0_5.index t (0 : Fin 3) * 1 + 1 * (y 0).val) * 1024 + (win0_5.index t (2 : Fin 3) * 1024 + 1 * (y 2).val) = t.val * 1024 + (y 2).val
  rw [e0, e2]
  omega

/-- An index of the tiled result is in point `t`'s block iff each coordinate is in the block's range on its axis. -/
theorem mem_tile (t : Fin cfg0.N) (i : S16x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v2).slice (win0_5.rect t)).set ↔ _
  rw [View.set_slice_whole, Rect.mem_set_unit]
  exact Iff.rfl

/-- Every index of the tiled result is in the block of the point its leading coordinate names. -/
theorem covered (i : S16x1x1024.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 1024 := (i 2).isLt
  have hN : cfg0.N = 16 := N_0
  obtain ⟨t, ht⟩ : ∃ t : Fin cfg0.N, t.val = (i 0).val := ⟨⟨(i 0).val, by rw [hN]; exact h0⟩, rfl⟩
  obtain ⟨-, -, -, -, -, -, -, -, -, -, e0, e1, e2⟩ := block_indices t
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 1024 ≤ (i 2).val ∧ (i 2).val < win0_5.index t (2 : Fin 3) * 1024 + 1024; rw [e2]; omega

/-- So the region leaves the tiled result array holding `tiles` of the argument arrays. -/
theorem tiles_final (c : Dev nD) : (dats m 0 c).arrAt 5 cfg0.N = tiles (inputs m c) (hiddenW m c) (hiddenB m c) (outputW m c) (outputB m c) :=
  (dats m 0 c).arrAt_eq_of_cover 5 (tiles (inputs m c) (hiddenW m c) (hiddenB m c) (outputW m c) (outputB m c)) (fun t _ => flushed_eq m c t) covered

end Cert.KernelIdeal.Folded

end
-- ==== Proof.KernelRun.lean ====
/-
  The kernel's run, read: its result column is the sigmoid of each row's score in the folded arrangement.

  After the region the program reshapes the tiled `[16, 1, 1024]` array to the column `[16384, 1]`. Both are
  row-major, so entry `(r, 0)` of the column is entry `(r / 1024, 0, r % 1024)` of the tiled array, which stands for
  batch row `1024 (r / 1024) + r % 1024 = r`.
-/
import proofs.«109789_g63591285784749_cont_sun_c4_171_19_alg».proof.Proof.Tiles
import Idealize.ShloMosaic.Lib.StableHlo.Run
import Idealize.ShloMosaic.Lib.Tactic

noncomputable section

namespace Cert.KernelIdeal.Folded

open Cert.KernelIdeal Cert.KernelIdeal.Gen Idealize.ShloMosaic Idealize.ShloMosaic.TcCoe Idealize.SL.Sem Idealize.ShloMosaic.ValueIdx
open Cert.Perceptron (foldedScore)

variable (m : (ℓ : Loc nD τ sig) → Buf (Elt Ideal) ℓ) (ρ : Dev nD → PrngReg)

/-- The probabilities in the kernel's arrangement: the sigmoid of each row's folded score, as a column. -/
def foldedProb (a0 : (⟨2, ![16384, 2176]⟩ : Shape).Idx → EReal) (a1 : (⟨2, ![2176, 64]⟩ : Shape).Idx → EReal)
    (a2 : (⟨1, ![64]⟩ : Shape).Idx → EReal) (a3 : (⟨2, ![64, 1]⟩ : Shape).Idx → EReal)
    (a4 : (⟨1, ![1]⟩ : Shape).Idx → EReal) : (⟨2, ![16384, 1]⟩ : Shape).Idx → EReal :=
  fun i => Ideal.logistic (foldedScore a0 a1 a2 a3 a4 (i 0))

/-- The tiled array reshaped to a column reads, at `(r, 0)`, the tiled array at `(r / 1024, 0, r % 1024)`: the same
    row-major position. -/
theorem untile (X : (⟨3, ![16, 1, 1024]⟩ : Shape).Idx → EReal) (h : (⟨3, ![16, 1, 1024]⟩ : Shape).ShapeCasts ⟨2, ![16384, 1]⟩)
    (r : Fin 16384) (z : Fin 1) :
    shapeCast ⟨2, ![16384, 1]⟩ X h (ix2 r z)
      = X (ix3 (⟨r.val / 1024, by have := r.isLt; omega⟩ : Fin 16) (0 : Fin 1) (⟨r.val % 1024, by omega⟩ : Fin 1024)) :=
  shapeCast_apply X h _ _ (by
    rw [Shape.rowMajor_val_three, Shape.rowMajor_val_two]
    show (r.val / 1024 * 1 + 0) * 1024 + r.val % 1024 = r.val * 1 + z.val
    have hz : z.val = 0 := by omega
    omega)

/-- What the program's result buffer holds after the lines that follow the region. -/
theorem result_eq (c : Dev nD) :
    Pipeline.afterTail₀ cfgs (dats m) 0 (V0 m) [hostOps1] c main_v3 = foldedProb (inputs m c) (hiddenW m c) (hiddenB m c) (outputW m c) (outputB m c) := by
  unfold Pipeline.afterTail₀
  show StableHlo.after hostOps1 _ (Proc.devRef .tc main_v3) = _
  after_results
  funext i
  obtain ⟨r, z, rfl⟩ : ∃ (r : Fin 16384) (z : Fin 1), i = ix2 r z := ⟨i 0, i 1, eq_ix2 i⟩
  show shapeCast S16384x1 (Pipeline.withArrays (cfgs 0).spec c (V0 m c) (fun w => (dats m 0 c).arrAt w (cfgs 0).N) (Proc.devRef .tc main_v2)) shapeCasts_S16x1x1024_S16384x1 (ix2 r z) = _
  refine (untile _ _ r z).trans ?_
  refine (congrFun ((Pipeline.withArrays_arr spec0 launch0.win.arr_inj c _ _ 5).trans (tiles_final m c)) _).trans ?_
  show Ideal.logistic (foldedScore (inputs m c) (hiddenW m c) (hiddenB m c) (outputW m c) (outputB m c) _) = Ideal.logistic (foldedScore (inputs m c) (hiddenW m c) (hiddenB m c) (outputW m c) (outputB m c) r)
  refine congrArg (fun r' => Ideal.logistic (foldedScore (inputs m c) (hiddenW m c) (hiddenB m c) (outputW m c) (outputB m c) r')) (Fin.ext ?_)
  show r.val / 1024 * 1024 + r.val % 1024 = r.val
  omega

/-- Every weakly fair execution of the kernel's program terminates with the result column at the folded
    probabilities of the argument arrays, and the argument arrays unchanged. -/
theorem run : θ_run defs (onTc (τ := τ) (main (F := Ideal))) ⟨m, fun _ => 0, ρ⟩ fun r => ∀ c : Dev nD,
      r.2.mem ((c.tc : Thread nD τ).loc main_v3) = foldedProb (inputs m c) (hiddenW m c) (hiddenB m c) (outputW m c) (outputB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Folded

end
-- ==== Proof.lean ====
/-
  A two-layer perceptron with a sigmoid output, computed two ways, is one function on finite inputs.

  The reference computes, for each batch row `r`, the hidden layer `∑ d, x r d * Wh d h + bh h`, then the output
  layer `∑ h, hidden r h * Wo h + bo`, then `1 / (1 + e^(-score))`. The kernel first folds the two affine layers
  into one weight vector `w d = ∑ h, Wo h * Wh d h` and one bias `∑ h, bh h * Wo h + bo`, and then streams the batch
  through a single dot product `∑ d, w d * x r d` plus that bias, followed by the sigmoid as one operation.

  Over the extended reals the sigmoid operation is by definition `1 / (1 + e^(-z))`, so the two programs apply the same
  function to their scores. The two scores differ by distributing `Wo h` over the hidden layer's sum and exchanging
  the sums over `h` and `d`; distributivity fails at the infinities, and this is where the precondition enters:
  every input is finite, so every entry is a real number and the two arrangements agree.

  The kernel's value is read off its generated frame run (what each grid point leaves in its buffers, the blocks
  written back, the reshape after the region); the reference's value is its generated run read operation by
  operation. The ideal pass rewrote nothing, so the kernel's idealization is its own text.
-/
import proofs.«109789_g63591285784749_cont_sun_c4_171_19_alg».proof.Defs
import proofs.«109789_g63591285784749_cont_sun_c4_171_19_alg».proof.Proof.Gen.Kernel
import proofs.«109789_g63591285784749_cont_sun_c4_171_19_alg».proof.Proof.Gen.Kernel.Skeleton
import proofs.«109789_g63591285784749_cont_sun_c4_171_19_alg».proof.Proof.Gen.Kernel.Launch
import proofs.«109789_g63591285784749_cont_sun_c4_171_19_alg».proof.Proof.Gen.Kernel.Points
import proofs.«109789_g63591285784749_cont_sun_c4_171_19_alg».proof.Proof.Gen.Kernel.Frame
import proofs.«109789_g63591285784749_cont_sun_c4_171_19_alg».proof.Proof.Gen.KernelIdeal
import proofs.«109789_g63591285784749_cont_sun_c4_171_19_alg».proof.Proof.Gen.KernelIdeal.Skeleton
import proofs.«109789_g63591285784749_cont_sun_c4_171_19_alg».proof.Proof.Gen.KernelIdeal.Launch
import proofs.«109789_g63591285784749_cont_sun_c4_171_19_alg».proof.Proof.Gen.KernelIdeal.Points
import proofs.«109789_g63591285784749_cont_sun_c4_171_19_alg».proof.Proof.Gen.KernelIdeal.Frame
import proofs.«109789_g63591285784749_cont_sun_c4_171_19_alg».proof.Proof.Gen.ReferenceIdeal
import proofs.«109789_g63591285784749_cont_sun_c4_171_19_alg».proof.Proof.Gen.Pre_finite_inputs
import proofs.«109789_g63591285784749_cont_sun_c4_171_19_alg».proof.Proof.Gen.ReferenceIdeal.Run
import proofs.«109789_g63591285784749_cont_sun_c4_171_19_alg».proof.Proof.Gen.ReferenceIdeal.Read
import proofs.«109789_g63591285784749_cont_sun_c4_171_19_alg».proof.Proof.Spec
import proofs.«109789_g63591285784749_cont_sun_c4_171_19_alg».proof.Proof.Finite
import proofs.«109789_g63591285784749_cont_sun_c4_171_19_alg».proof.Proof.RefValue
import proofs.«109789_g63591285784749_cont_sun_c4_171_19_alg».proof.Proof.KernelRun
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories agreeing on finite arguments, both programs end with the same column of probabilities: the
    kernel's is the sigmoid of the folded score, the reference's the sigmoid of the layered score, and on real
    entries the two scores are equal. -/
theorem algebraic : Cert.algebraic_KernelIdeal_ReferenceIdeal := by
  intro m ρ m' ρ' hpre hagree
  refine ⟨fun c => Cert.KernelIdeal.Folded.foldedProb (Cert.KernelIdeal.Folded.inputs m c) (Cert.KernelIdeal.Folded.hiddenW m c)
    (Cert.KernelIdeal.Folded.hiddenB m c) (Cert.KernelIdeal.Folded.outputW m c) (Cert.KernelIdeal.Folded.outputB m c),
    Cert.KernelIdeal.Folded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.reference_eq_prob,
    (hagree c).1, (hagree c).2.1, (hagree c).2.2.1, (hagree c).2.2.2.1, (hagree c).2.2.2.2]
  obtain ⟨h0, h1, h2, h3, h4⟩ := Cert.Perceptron.reals_of_finite _ _ _ _ _ (hpre c)
  funext i
  exact congrArg Ideal.logistic (Cert.Perceptron.foldedScore_eq_score _ _ _ _ _ h0 h1 h2 h3 h4 (i 0)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
